-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x16 : Shape := ⟨2, ![100000, 16]⟩
abbrev S2000x512 : Shape := ⟨2, ![2000, 512]⟩
abbrev S2000x16 : Shape := ⟨2, ![2000, 16]⟩
abbrev S1700000x16 : Shape := ⟨2, ![1700000, 16]⟩
abbrev S1x16 : Shape := ⟨2, ![1, 16]⟩
abbrev S10000x16 : Shape := ⟨2, ![10000, 16]⟩
abbrev S100000x40 : Shape := ⟨2, ![100000, 40]⟩
abbrev S10000x40 : Shape := ⟨2, ![10000, 40]⟩
abbrev S1700000x40 : Shape := ⟨2, ![1700000, 40]⟩
abbrev S1x40 : Shape := ⟨2, ![1, 40]⟩

abbrev nBuf : Space → Nat
  | .hbm => 84
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S2x1600000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x16, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x16, .f32⟩
  | .hbm, ⟨56, _⟩ => ⟨S1700000x1, .f32⟩
  | .hbm, ⟨57, _⟩ => ⟨S1700000x16, .f32⟩
  | .hbm, ⟨58, _⟩ => ⟨S1700000x16, .f32⟩
  | .hbm, ⟨59, _⟩ => ⟨S_, .f32⟩
  | .hbm, ⟨60, _⟩ => ⟨S100000x16, .f32⟩
  | .hbm, ⟨61, _⟩ => ⟨S1700000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S10000x16, .f32⟩
  | .local _ .vmem, ⟨6, _⟩ => ⟨S10000x16, .f32⟩
  | .local _ .vmem, ⟨7, _⟩ => ⟨S1x16, .f32⟩
  | .local _ .vmem, ⟨8, _⟩ => ⟨S10000x16, .f32⟩
  | .local _ .vmem, ⟨9, _⟩ => ⟨S10000x16, .f32⟩
  | .local _ .vmem, ⟨10, _⟩ => ⟨S10000x16, .f32⟩
  | .local _ .vmem, ⟨11, _⟩ => ⟨S10000x16, .f32⟩
  | .local _ .vmem, ⟨12, _⟩ => ⟨S16x40, .f32⟩
  | .local _ .vmem, ⟨13, _⟩ => ⟨S10000x40, .f32⟩
  | .local _ .vmem, ⟨14, _⟩ => ⟨S10000x40, .f32⟩
  | .local _ .vmem, ⟨15, _⟩ => ⟨S10000x40, .f32⟩
  | .local _ .vmem, ⟨16, _⟩ => ⟨S10000x40, .f32⟩
  | .local _ .vmem, ⟨17, _⟩ => ⟨S1x40, .f32⟩
  | .local _ .vmem, ⟨18, _⟩ => ⟨S10000x40, .f32⟩
  | .local _ .vmem, ⟨19, _⟩ => ⟨S10000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x40_S16x40_0_0 : ∀ a, (![0, 0] : Fin 2 → Nat) a + S16x40.size a ≤ S16x40.size a
  h_S16x40 : 0 < S16x40.numel
  inb_S10000x40_S10000x40_0_0 : ∀ a, (![0, 0] : Fin 2 → Nat) a + S10000x40.size a ≤ S10000x40.size a
  h_S10000x40 : 0 < S10000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  shapeCasts_S10000x40_S10000x40 : S10000x40.ShapeCasts S10000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x512_S512x16_S2000x16_1_0_0_1_n_n_wf : DotDims.WF S2000x512 S512x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S10000x16_S16x40_S10000x40_1_0_0_1_n_n_wf : DotDims.WF S10000x16 S16x40 S10000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x40.size a ≤ S16x40.size a
  hwx2_1 : ∀ i : grid2.Coords, EltTy.bits .f32 = 32 ∨ (Rect.block (s := S16x40) S16x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x40.size a ≤ S100000x40.size a
  hwx3_0 : ∀ i : grid3.Coords, EltTy.bits .f32 = 32 ∨ (Rect.block (s := S100000x40) S10000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x40.size a ≤ S100000x40.size a
  hwx3_2 : ∀ i : grid3.Coords, EltTy.bits .f32 = 32 ∨ (Rect.block (s := S100000x40) S10000x40.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S10000x16_S16x40_S10000x40_1_0_0_1_n_n : DotDims S10000x16 S16x40 S10000x40 where
  lhsContracting := [1]
  rhsContracting := [0]
  lhsNonContracting := [0]
  rhsNonContracting := [1]
  lhsBatch := []
  rhsBatch := []
  wf := dot_S10000x16_S16x40_S10000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S10000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S10000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000x16 : Shape := ⟨2, ![100000, 16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x16 : Shape := ⟨2, ![1700000, 16]⟩
abbrev S1x16 : Shape := ⟨2, ![1, 16]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x1600000, .i32⟩
  | 2 => ⟨S512x16, .f32⟩
  | 3 => ⟨S16, .f32⟩
  | 4 => ⟨S16x40, .f32⟩
  | 5 => ⟨S40, .f32⟩
  | 6 => ⟨S100000x16, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S1700000, .f32⟩
  | 16 => ⟨S_, .f32⟩
  | 17 => ⟨S100000, .f32⟩
  | 18 => ⟨S1700000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000, .f32⟩
  | 46 => ⟨S1700000, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x16, .f32⟩
  | 56 => ⟨S1700000x1, .f32⟩
  | 57 => ⟨S1700000x16, .f32⟩
  | 58 => ⟨S1700000x16, .f32⟩
  | 59 => ⟨S_, .f32⟩
  | 60 => ⟨S100000x16, .f32⟩
  | 61 => ⟨S1700000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x40, .f32⟩
  | 70 => ⟨S1x1600000, .i32⟩
  | 71 => ⟨S1600000, .i32⟩
  | 72 => ⟨S1x1600000, .i32⟩
  | 73 => ⟨S1600000, .i32⟩
  | 74 => ⟨S100000, .i32⟩
  | 75 => ⟨S1700000, .i32⟩
  | 76 => ⟨S1700000, .i32⟩
  | 77 => ⟨S_, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S_, .i32⟩
  | 101 => ⟨S1700000, .i32⟩
  | 102 => ⟨S1700000, .i1⟩
  | 103 => ⟨S_, .i32⟩
  | 104 => ⟨S1700000, .i32⟩
  | 105 => ⟨S1700000, .i32⟩
  | 106 => ⟨S1700000, .i32⟩
  | 107 => ⟨S1700000x1, .i32⟩
  | 108 => ⟨S1700000, .f32⟩
  | 109 => ⟨S1700000, .f32⟩
  | 110 => ⟨S_, .i32⟩
  | 111 => ⟨S1700000, .i32⟩
  | 112 => ⟨S1700000, .i1⟩
  | 113 => ⟨S_, .i32⟩
  | 114 => ⟨S1700000, .i32⟩
  | 115 => ⟨S1700000, .i32⟩
  | 116 => ⟨S1700000, .i32⟩
  | 117 => ⟨S1700000x1, .i32⟩
  | 118 => ⟨S1700000x40, .f32⟩
  | 119 => ⟨S1700000x1, .f32⟩
  | 120 => ⟨S1700000x40, .f32⟩
  | 121 => ⟨S1700000x40, .f32⟩
  | 122 => ⟨S_, .f32⟩
  | 123 => ⟨S100000x40, .f32⟩
  | 124 => ⟨S1700000x1, .i32⟩
  | 125 => ⟨S100000x40, .f32⟩
  | 126 => ⟨S1x40, .f32⟩
  | 127 => ⟨S100000x40, .f32⟩
  | _ => ⟨S100000x512, .f32⟩

abbrev hbmTy0_1 (i : Nat) : BufTy := match i % 128 with
  | 0 => ⟨S100000x40, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_9 : Ref sig .tc := ⟨.hbm, 77, rfl⟩
abbrev main_v56 : Ref sig .tc := ⟨.hbm, 78, rfl⟩
abbrev main_cst_10 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v63 : Ref sig .tc := ⟨.hbm, 90, rfl⟩
abbrev main_c_13 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_15 : Ref sig .tc := ⟨.hbm, 100, rfl⟩
abbrev main_v71 : Ref sig .tc := ⟨.hbm, 101, rfl⟩
abbrev main_v72 : Ref sig .tc := ⟨.hbm, 102, rfl⟩
abbrev main_c_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  dot_S100000x512_S512x16_S100000x16_1_0_0_1_n_n_wf : DotDims.WF S100000x512 S512x16 S100000x16 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  dot_S100000x16_S16x40_S100000x40_1_0_0_1_n_n_wf : DotDims.WF S100000x16 S16x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel's run, read at the result buffer.

  The program is nine segments: three stretches of host operations, the first product's region, a stretch, the
  bias-and-maximum region, the second product's region, a stretch, the bias region. The buffer contents are folded
  through them (`W0` … `W9`), and the launch leaves every buffer that outlives a region at the last stage `W9`
  (`GenP.run_all`). `run_out` reads that at the seven buffers the claims name: the result buffer holds `W9`'s value
  there, and each argument is walked back through the fold to its launch contents, since no stretch and no region
  writes an argument.
-/
import proofs.«115787_j35966056137205_1_alg».proof.Proof.KernelLaunch

noncomputable section

namespace Cert.KernelIdeal.RunAll

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- The result buffer ends at the fold's last stage, the arguments as launched. -/
theorem run_out : θ_run defs (onTc (τ := τ) (main (F := F))) ⟨m, fun _ => 0, ρ⟩ (fun r => ∀ c : Dev nD,
      r.2.mem ((c.tc : Thread nD τ).loc main_v61) = W9 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨h c _ (mem_uc main_v61 (by decide)),
     (h c _ (mem_uc main_arg0 (by decide))).trans (W9_main_arg0 m ρ c),
     (h c _ (mem_uc main_arg1 (by decide))).trans (W9_main_arg1 m ρ c),
     (h c _ (mem_uc main_arg2 (by decide))).trans (W9_main_arg2 m ρ c),
     (h c _ (mem_uc main_arg3 (by decide))).trans (W9_main_arg3 m ρ c),
     (h c _ (mem_uc main_arg4 (by decide))).trans (W9_main_arg4 m ρ c),
     (h c _ (mem_uc main_arg5 (by decide))).trans (W9_main_arg5 m ρ c)⟩)
    (Cert.KernelIdeal.GenP.run_all m ρ)

end Cert.KernelIdeal.RunAll

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«115787_j35966056137205_1_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.Layers.lean ====
/-
  The two graph-convolution layers as functions of whole arrays, in the host's own operations.

  From the edge argument `x1 : i32[2, E]`: `rowsOf` / `colsOf` are its two rows with the node numbers 0 … N-1 appended (the
  self loops) — the sending and the receiving end of every edge; `degOf` counts, per node, the edges that end in it;
  `invSqrtDeg` is its inverse square root where the count is positive and zero elsewhere; `weightOf` is, per edge, the
  product of that number at its two ends.
  A layer takes a node-by-feature array `h`: `agg16` / `agg40` make every receiving node sum, over the edges that end in
  it, the sender's row scaled by the edge's weight (a row gather at the senders, a negative index wrapped once by the
  node count; the weight repeated along the features; an accumulating scatter into zeros at the receivers).
  `lin1` / `lin2`: the products with the two weight matrices. `rowBias16`: a bias row added to every node's row, then the
  maximum with zero. `rowBias40`: a bias row added to every node's row. `network`: the composition; both layers
  aggregate over the same edge list with the same weights.
  Read at an index, on the extended reals: `lin1_apply`, `lin2_apply` (a sum over the contracted axis),
  `rowBias16_apply`, `rowBias40_apply`; and a bias vector laid out as one row by a broadcast (`rowOf16`, `rowOf40`) or by
  a cast is the same row (`castRow16`, `castRow40`).
-/
import proofs.«115787_j35966056137205_1_alg».proof.Proof.Gen.ReferenceIdeal
import proofs.«115787_j35966056137205_1_alg».proof.Proof.LibHostRead
import proofs.«115787_j35966056137205_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.Gcn

open Cert.ReferenceIdeal Cert.ReferenceIdeal.Facts₀ Cert.ReferenceIdeal.Facts
open Idealize.ShloMosaic Idealize.ShloMosaic.ValueIdx Cert.LibHostRead Cert.LibPlainDot

variable {F : FTy → Type} [FloatOps F]

/-- The sending end of every edge: row 0 of the edge argument, then the node numbers (the self loops). -/
def rowsOf (x1 : (⟨S2x1600000, .i32⟩ : BufTy).Contents (Elt F)) : (⟨S1700000, .i32⟩ : BufTy).Contents (Elt F) :=
  concatenate S1700000 0 [⟨S1600000, (shapeCast _ (extractStridedSlice S1x1600000 ![0, 0] x1 slices_S2x1600000_S1x1600000_0_0) shapeCasts_S1x1600000_S1600000)⟩, ⟨S100000, (iotaInDim S100000 32 0)⟩] concatenates_S1600000_S100000_S1700000_d0

/-- The receiving end of every edge: row 1 of the edge argument, then the node numbers. -/
def colsOf (x1 : (⟨S2x1600000, .i32⟩ : BufTy).Contents (Elt F)) : (⟨S1700000, .i32⟩ : BufTy).Contents (Elt F) :=
  concatenate S1700000 0 [⟨S1600000, (shapeCast _ (extractStridedSlice S1x1600000 ![1, 0] x1 slices_S2x1600000_S1x1600000_1_0) shapeCasts_S1x1600000_S1600000)⟩, ⟨S100000, (iotaInDim S100000 32 0)⟩] concatenates_S1600000_S100000_S1700000_d0

/-- An index vector as the gather takes it: a negative index wrapped once by the node count, as a column. -/
def wrapped (ix : (⟨S1700000, .i32⟩ : BufTy).Contents (Elt F)) : (⟨S1700000x1, .i32⟩ : BufTy).Contents (Elt F) :=
  broadcastInDim S1700000x1 ![0] bcast_S1700000_S1700000x1_0
    (select (cmpi .slt ix (broadcastInDim S1700000 ![] bcast_S_S1700000 (constantI S_ 32 0#32)))
      (addi ix (broadcastInDim S1700000 ![] bcast_S_S1700000 (constantI S_ 32 100000#32))) ix)

/-- Per node, the number of edges that end in it (one accumulated per edge, from zero). -/
def degOf (x1 : (⟨S2x1600000, .i32⟩ : BufTy).Contents (Elt F)) : (⟨S100000, .f32⟩ : BufTy).Contents (Elt F) :=
  Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 (colsOf (F := F) x1))
    (broadcastInDim S1700000 ![] bcast_S_S1700000 (constant (F := F) S_ .f32 0x3F800000#32))

/-- Per node, the inverse square root of its count where that is positive, zero elsewhere. -/
def invSqrtDeg (x1 : (⟨S2x1600000, .i32⟩ : BufTy).Contents (Elt F)) : (⟨S100000, .f32⟩ : BufTy).Contents (Elt F) :=
  select (cmpf (F := F) .ogt (degOf (F := F) x1) (broadcastInDim S100000 ![] bcast_S_S100000 (constant (F := F) S_ .f32 0x00000000#32)))
    (Host.rsqrt (degOf (F := F) x1))
    (broadcastInDim S100000 ![] bcast_S_S100000 (constant (F := F) S_ .f32 0x00000000#32))

/-- Per edge, the product of the two ends' inverse square-root counts. -/
def weightOf (x1 : (⟨S2x1600000, .i32⟩ : BufTy).Contents (Elt F)) : (⟨S1700000, .f32⟩ : BufTy).Contents (Elt F) :=
  mulf (Host.gather gather_S100000_S1700000x1_S1700000_n_0_n_n_0_1_1 (invSqrtDeg (F := F) x1) (wrapped (F := F) (rowsOf (F := F) x1)))
    (Host.gather gather_S100000_S1700000x1_S1700000_n_0_n_n_0_1_1 (invSqrtDeg (F := F) x1) (wrapped (F := F) (colsOf (F := F) x1)))

/-- One aggregation over 16 features: receiver `cols e` accumulates row `rows e` of `h` times `w e`, from zero. -/
def agg16 (h : (⟨S100000x16, .f32⟩ : BufTy).Contents (Elt F)) (rows cols : (⟨S1700000, .i32⟩ : BufTy).Contents (Elt F))
    (w : (⟨S1700000, .f32⟩ : BufTy).Contents (Elt F)) : (⟨S100000x16, .f32⟩ : BufTy).Contents (Elt F) :=
  Host.scatterAdd scatter_S100000x16_S1700000x1_S1700000x16_1_0_0_1
    (broadcastInDim S100000x16 ![] bcast_S_S100000x16 (constant (F := F) S_ .f32 0x00000000#32))
    (broadcastInDim S1700000x1 ![0] bcast_S1700000_S1700000x1_0 cols)
    (mulf (Host.gather gather_S100000x16_S1700000x1_S1700000x16_1_0_n_n_0_1_116 h (wrapped (F := F) rows))
      (broadcastInDim S1700000x16 ![0, 1] bcast_S1700000x1_S1700000x16_0_1 (broadcastInDim S1700000x1 ![0] bcast_S1700000_S1700000x1_0 w)))

/-- The same aggregation over 40 features. -/
def agg40 (h : (⟨S100000x40, .f32⟩ : BufTy).Contents (Elt F)) (rows cols : (⟨S1700000, .i32⟩ : BufTy).Contents (Elt F))
    (w : (⟨S1700000, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant (F := F) S_ .f32 0x00000000#32))
    (broadcastInDim S1700000x1 ![0] bcast_S1700000_S1700000x1_0 cols)
    (mulf (Host.gather gather_S100000x40_S1700000x1_S1700000x40_1_0_n_n_0_1_140 h (wrapped (F := F) rows))
      (broadcastInDim S1700000x40 ![0, 1] bcast_S1700000x1_S1700000x40_0_1 (broadcastInDim S1700000x1 ![0] bcast_S1700000_S1700000x1_0 w)))

/-- The node features times the first weight matrix. -/
def lin1 (x0 : (⟨S100000x512, .f32⟩ : BufTy).Contents (Elt F)) (x2 : (⟨S512x16, .f32⟩ : BufTy).Contents (Elt F)) :
    (⟨S100000x16, .f32⟩ : BufTy).Contents (Elt F) :=
  Host.dotGeneral dot_S100000x512_S512x16_S100000x16_1_0_0_1_n_n none x0 x2

/-- A node-by-16 array times the second weight matrix. -/
def lin2 (h : (⟨S100000x16, .f32⟩ : BufTy).Contents (Elt F)) (x4 : (⟨S16x40, .f32⟩ : BufTy).Contents (Elt F)) :
    (⟨S100000x40, .f32⟩ : BufTy).Contents (Elt F) :=
  Host.dotGeneral dot_S100000x16_S16x40_S100000x40_1_0_0_1_n_n none h x4

/-- A bias row added to every node's row of 16 features, then the maximum with zero. -/
def rowBias16 (h : (⟨S100000x16, .f32⟩ : BufTy).Contents (Elt F)) (brow : (⟨S1x16, .f32⟩ : BufTy).Contents (Elt F)) :
    (⟨S100000x16, .f32⟩ : BufTy).Contents (Elt F) :=
  maximumf (addf h (broadcastInDim S100000x16 ![0, 1] bcast_S1x16_S100000x16_0_1 brow))
    (broadcastInDim S100000x16 ![] bcast_S_S100000x16 (constant (F := F) S_ .f32 0x00000000#32))

/-- A bias row added to every node's row of 40 features. -/
def rowBias40 (h : (⟨S100000x40, .f32⟩ : BufTy).Contents (Elt F)) (brow : (⟨S1x40, .f32⟩ : BufTy).Contents (Elt F)) :
    (⟨S100000x40, .f32⟩ : BufTy).Contents (Elt F) :=
  addf h (broadcastInDim S100000x40 ![0, 1] bcast_S1x40_S100000x40_0_1 brow)

/-- The bias vectors as the one row of a matrix. -/
def rowOf16 (x3 : (⟨S16, .f32⟩ : BufTy).Contents (Elt F)) : (⟨S1x16, .f32⟩ : BufTy).Contents (Elt F) :=
  broadcastInDim S1x16 ![1] bcast_S16_S1x16_1 x3
def rowOf40 (x5 : (⟨S40, .f32⟩ : BufTy).Contents (Elt F)) : (⟨S1x40, .f32⟩ : BufTy).Contents (Elt F) :=
  broadcastInDim S1x40 ![1] bcast_S40_S1x40_1 x5

/-- The whole network over the argument arrays and the two bias rows. -/
def network (x0 : (⟨S100000x512, .f32⟩ : BufTy).Contents (Elt F)) (x1 : (⟨S2x1600000, .i32⟩ : BufTy).Contents (Elt F))
    (x2 : (⟨S512x16, .f32⟩ : BufTy).Contents (Elt F)) (b1 : (⟨S1x16, .f32⟩ : BufTy).Contents (Elt F))
    (x4 : (⟨S16x40, .f32⟩ : BufTy).Contents (Elt F)) (b2 : (⟨S1x40, .f32⟩ : BufTy).Contents (Elt F)) :
    (⟨S100000x40, .f32⟩ : BufTy).Contents (Elt F) :=
  rowBias40 (agg40 (lin2 (rowBias16 (agg16 (lin1 x0 x2) (rowsOf (F := F) x1) (colsOf (F := F) x1) (weightOf (F := F) x1)) b1) x4)
    (rowsOf (F := F) x1) (colsOf (F := F) x1) (weightOf (F := F) x1)) b2

/-! ## Read at an index, on the extended reals -/

theorem lin1_apply (x0 : (⟨S100000x512, .f32⟩ : BufTy).Contents (Elt Ideal)) (x2 : (⟨S512x16, .f32⟩ : BufTy).Contents (Elt Ideal))
    (p : Fin 100000) (j : Fin 16) :
    lin1 (F := Ideal) x0 x2 (ix2 p j) = ∑ k : Fin 512, x0 (ix2 p k) * x2 (ix2 k j) :=
  hdot_apply dot_S100000x512_S512x16_S100000x16_1_0_0_1_n_n (plainDot_plain 100000 512 16) x0 x2 p j

theorem lin2_apply (h : (⟨S100000x16, .f32⟩ : BufTy).Contents (Elt Ideal)) (x4 : (⟨S16x40, .f32⟩ : BufTy).Contents (Elt Ideal))
    (p : Fin 100000) (j : Fin 40) :
    lin2 (F := Ideal) h x4 (ix2 p j) = ∑ k : Fin 16, h (ix2 p k) * x4 (ix2 k j) :=
  hdot_apply dot_S100000x16_S16x40_S100000x40_1_0_0_1_n_n (plainDot_plain 100000 16 40) h x4 p j

theorem rowBias16_apply (h : (⟨S100000x16, .f32⟩ : BufTy).Contents (Elt F)) (brow : (⟨S1x16, .f32⟩ : BufTy).Contents (Elt F))
    (p : Fin 100000) (j : Fin 16) :
    rowBias16 (F := F) h brow (ix2 p j)
      = FloatOps.maximumf (FloatOps.addf (h (ix2 p j)) (brow (ix2 (0 : Fin 1) j))) (FloatOps.ofBits .f32 0x00000000#32) := by
  unfold rowBias16
  show FloatOps.maximumf (FloatOps.addf (h (ix2 p j)) (broadcastInDim S100000x16 ![0, 1] bcast_S1x16_S100000x16_0_1 brow (ix2 p j)))
    (broadcastInDim S100000x16 ![] bcast_S_S100000x16 (constant (F := F) S_ .f32 0x00000000#32) (ix2 p j)) = _
  rw [bid_1b_ab_apply, bid_scalar_apply]
  rfl

theorem rowBias40_apply (h : (⟨S100000x40, .f32⟩ : BufTy).Contents (Elt F)) (brow : (⟨S1x40, .f32⟩ : BufTy).Contents (Elt F))
    (p : Fin 100000) (j : Fin 40) :
    rowBias40 (F := F) h brow (ix2 p j) = FloatOps.addf (h (ix2 p j)) (brow (ix2 (0 : Fin 1) j)) := by
  unfold rowBias40
  show FloatOps.addf (h (ix2 p j)) (broadcastInDim S100000x40 ![0, 1] bcast_S1x40_S100000x40_0_1 brow (ix2 p j)) = _
  rw [bid_1b_ab_apply]

/-- The bias vector cast to one row is the bias vector broadcast to one row. -/
theorem castRow16 (x3 : (⟨S16, .f32⟩ : BufTy).Contents (Elt F)) (hc : S16.ShapeCasts S1x16) :
    shapeCast S1x16 x3 hc = rowOf16 (F := F) x3 := by
  funext i
  obtain ⟨u, j, rfl⟩ : ∃ (u : Fin 1) (j : Fin 16), i = ix2 u j := ⟨i 0, i 1, eq_ix2 i⟩
  unfold rowOf16
  rw [shapeCast_a_1a_apply, bid_b_1b_apply]

theorem castRow40 (x5 : (⟨S40, .f32⟩ : BufTy).Contents (Elt F)) (hc : S40.ShapeCasts S1x40) :
    shapeCast S1x40 x5 hc = rowOf40 (F := F) x5 := by
  funext i
  obtain ⟨u, j, rfl⟩ : ∃ (u : Fin 1) (j : Fin 40), i = ix2 u j := ⟨i 0, i 1, eq_ix2 i⟩
  unfold rowOf40
  rw [shapeCast_a_1a_apply, bid_b_1b_apply]

end Cert.Gcn

end
-- ==== Proof.Region0.lean ====
/-
  The first product's region: 50 points, point t multiplying rows 2000·t … 2000·t+1999 of the node features by the whole
  first weight matrix. Its result array after the last point is the product of the two arrays as the region found them.
-/
import proofs.«115787_j35966056137205_1_alg».proof.Proof.Gen.KernelIdeal.Frame
import proofs.«115787_j35966056137205_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region0

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets, however they are spelt. -/
theorem hz : (![0, 0] : Fin 2 → Nat) = fun _ => 0 := funext fun a => by fin_cases a <;> rfl

/-- The body's result block at (r, j): both operands change format, which is the identity on the extended reals, and the
    product into the zero accumulator is the whole sum over the contracted axis. -/
theorem pay_apply (x0 : Vec Ideal S2000x512 .f32) (x1 : Vec Ideal S512x16 .f32) (r : Fin 2000) (j : Fin 16) :
    k0_pay1 (F := Ideal) x0 x1 (ix2 r j) = ∑ k : Fin 512, x0 (ix2 r k) * x1 (ix2 k j) := by
  unfold k0_pay1
  exact Cert.LibPlainDot.vmatmul_apply dot_S2000x512_S512x16_S2000x16_1_0_0_1_n_n
    (Cert.LibPlainDot.plainDot_plain 2000 512 16) _ _ r j

/-- The printed index maps over the grid: the row blocks of the left operand and of the result move with the point; the
    right operand's one block stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the two arrays as the region found them. -/
theorem flushed_eq (c : Dev nD) (t : Fin cfg0.N) :
    (dat0 (F := Ideal) V c).flushed 2 t
      = ((cfg0.win 2).blk t).view.read (Elt Ideal) (lin1 (F := Ideal) (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S2000x512) hz, View.ld_unit_zero (S := S512x16) hz]
  obtain ⟨e0, e1, e2, e3, e4, e5⟩ := idx_facts t
  funext y
  obtain ⟨r, j, rfl⟩ : ∃ (r : Fin 2000) (j : Fin 16), y = ix2 r j := ⟨y 0, y 1, eq_ix2 y⟩
  refine (pay_apply _ _ r j).trans ?_
  have ht : t.val < 50 := lt_of_lt_of_eq t.isLt N_0
  have hr : r.val < 2000 := r.isLt
  have hp : t.val * 2000 + r.val < 100000 := by omega
  -- row r of the result's block t is row 2000·t + r of the array
  have h2 : ((cfg0.win 2).blk t).view.emb (ix2 r j) = ix2 (⟨t.val * 2000 + r.val, hp⟩ : Fin 100000) j := by
    funext a; apply Fin.ext
    match a with
    | ⟨0, _⟩ => show win0_2.index t (0 : Fin 2) * 2000 + 1 * r.val = t.val * 2000 + r.val; omega
    | ⟨1, _⟩ => show win0_2.index t (1 : Fin 2) * 16 + 1 * j.val = j.val; omega
  show _ = lin1 (F := Ideal) (V c main_arg0) (V c main_arg2) (((cfg0.win 2).blk t).view.emb (ix2 r j))
  rw [h2, lin1_apply]
  refine Finset.sum_congr rfl fun k _ => ?_
  -- the same row of the left operand's block t; the right operand's block is the whole matrix
  have h0 : ((cfg0.win 0).blk t).view.emb (ix2 r k) = ix2 (⟨t.val * 2000 + r.val, hp⟩ : Fin 100000) k := by
    funext a; apply Fin.ext
    match a with
    | ⟨0, _⟩ => show win0_0.index t (0 : Fin 2) * 2000 + 1 * r.val = t.val * 2000 + r.val; omega
    | ⟨1, _⟩ => show win0_0.index t (1 : Fin 2) * 512 + 1 * k.val = k.val; omega
  have h1 : ((cfg0.win 1).blk t).view.emb (ix2 k j) = ix2 k j := by
    funext a; apply Fin.ext
    match a with
    | ⟨0, _⟩ => show win0_1.index t (0 : Fin 2) * 512 + 1 * k.val = k.val; omega
    | ⟨1, _⟩ => show win0_1.index t (1 : Fin 2) * 16 + 1 * j.val = j.val; omega
  have a0 : iblk0 V c 0 t (ix2 r k) = V c main_arg0 (ix2 (⟨t.val * 2000 + r.val, hp⟩ : Fin 100000) k) :=
    congrArg (V c main_arg0) h0
  have a1 : iblk0 V c 1 t (ix2 k j) = V c main_arg2 (ix2 k j) := congrArg (V c main_arg2) h1
  rw [a0, a1]

/-- An index of the result array is in point t's block iff each coordinate is in the block's range on its axis. -/
theorem mem_blk (t : Fin cfg0.N) (i : S100000x16.Idx) :
    i ∈ ((cfg0.win 2).blk t).view.set ↔ ∀ a : Fin 2, win0_2.index t a * S2000x16.size a ≤ (i a).val
      ∧ (i a).val < win0_2.index t a * S2000x16.size a + S2000x16.size a := by
  show i ∈ ((View.whole main_v30).slice (win0_2.rect t)).set ↔ _
  rw [View.set_slice_whole, Rect.mem_set_unit]
  exact Iff.rfl

/-- Every row of the result is in some point's block: row i is in the block of point i / 2000, and every point writes
    its block back. -/
theorem cover (i : S100000x16.Idx) :
    ∃ t : Fin cfg0.N, (cfg0.win 2).flush t = true ∧ i ∈ ((cfg0.win 2).blk t).view.set := by
  have hN : grid0.N = 50 := N_0
  have hi0 : (i 0).val < 100000 := (i 0).isLt
  have hi1 : (i 1).val < 16 := (i 1).isLt
  have hq : (i 0).val / 2000 < grid0.N := by rw [hN]; omega
  refine ⟨⟨(i 0).val / 2000, hq⟩, flush0_2 _, ?_⟩
  rw [mem_blk]
  obtain ⟨-, -, -, -, e4, e5⟩ := idx_facts ⟨(i 0).val / 2000, hq⟩
  have e4' : win0_2.index ⟨(i 0).val / 2000, hq⟩ (0 : Fin 2) = (i 0).val / 2000 := e4
  intro a
  match a with
  | ⟨0, _⟩ =>
    show win0_2.index ⟨(i 0).val / 2000, hq⟩ (0 : Fin 2) * 2000 ≤ (i 0).val
      ∧ (i 0).val < win0_2.index ⟨(i 0).val / 2000, hq⟩ (0 : Fin 2) * 2000 + 2000
    omega
  | ⟨1, _⟩ =>
    show win0_2.index ⟨(i 0).val / 2000, hq⟩ (1 : Fin 2) * 16 ≤ (i 1).val
      ∧ (i 1).val < win0_2.index ⟨(i 0).val / 2000, hq⟩ (1 : Fin 2) * 16 + 16
    omega

/-- After the region the result array is `lin1` of the two operand arrays as entered. -/
theorem final (c : Dev nD) :
    (dat0 (F := Ideal) V c).arrAt 2 cfg0.N = lin1 (F := Ideal) (V c main_arg0) (V c main_arg2) := by
  exact (dat0 (F := Ideal) V c).arrAt_eq_of_cover 2 (lin1 (F := Ideal) (V c main_arg0) (V c main_arg2))
    (fun t _ => flushed_eq V c t) cover

end Cert.KernelIdeal.Region0

end
-- ==== Proof.Region1.lean ====
/-
  The bias-and-maximum region: 10 points, point t adding the bias row to rows 10000·t … 10000·t+9999 and taking the
  maximum with zero. Its result array after the last point is `rowBias16` of the two arrays as the region found them.
-/
import proofs.«115787_j35966056137205_1_alg».proof.Proof.Gen.KernelIdeal.Frame
import proofs.«115787_j35966056137205_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem zeroOff : (![0, 0] : Fin 2 → Nat) = fun _ => 0 := funext fun a => by fin_cases a <;> rfl

/-- The body's payload at a row and a column: the maximum with zero of the block's entry plus the bias row's entry of
    that column. -/
theorem pay_apply (b : Vec F S1x16 .f32) (x : Vec F S10000x16 .f32) (r : Fin 10000) (j : Fin 16) :
    k1_pay1 b x (ix2 r j)
      = FloatOps.maximumf (FloatOps.addf (x (ix2 r j)) (b (ix2 (0 : Fin 1) j))) (FloatOps.ofBits .f32 0x00000000#32) := by
  unfold k1_pay1
  simp only [shapeCast_self]
  show FloatOps.maximumf (FloatOps.addf (x (ix2 r j)) (broadcastTo S10000x16 b broadcasts_S1x16_S10000x16 (ix2 r j)))
    (FloatOps.ofBits .f32 0x00000000#32) = _
  rw [broadcastTo_1b_ab_apply]

/-- The block indices over the ten points: the two big windows move down the rows with the point, the bias row stays. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of `rowBias16` of the two arrays as entered. -/
theorem flushed_eq (c : Dev nD) (t : Fin cfg1.N) :
    (dat1 (F := F) V c).flushed 2 t
      = ((cfg1.win 2).blk t).view.read (Elt F) (rowBias16 (F := F) (V c main_v43) (V c main_v44)) := by
  show (cfg1.win 2).cut (grid1.coords t) ((dat1 V c).after 2 t) = _
  rw [after1_2]
  unfold out1_2
  rw [View.canon_unit_zero zeroOff]
  simp only [View.ld_unit_zero (S := S10000x16) zeroOff, View.ld_unit_zero (S := S1x16) zeroOff]
  obtain ⟨e0, e1, e2, e3, e4, e5⟩ := idx_facts t
  funext y
  obtain ⟨r, j, rfl⟩ : ∃ (r : Fin 10000) (j : Fin 16), y = ix2 r j := ⟨y 0, y 1, eq_ix2 y⟩
  refine (pay_apply _ _ r j).trans ?_
  have hr : r.val < 10000 := r.isLt
  have hN : grid1.N = 10 := N_1
  have ht : t.val < grid1.N := t.isLt
  have hp : t.val * 10000 + r.val < 100000 := by omega
  have h0 : ((cfg1.win 0).blk t).view.emb (ix2 r j) = ix2 (⟨t.val * 10000 + r.val, hp⟩ : Fin 100000) j := by
    funext a; apply Fin.ext
    match a with
    | ⟨0, _⟩ => show win1_0.index t (0 : Fin 2) * 10000 + 1 * r.val = t.val * 10000 + r.val; omega
    | ⟨1, _⟩ => show win1_0.index t (1 : Fin 2) * 16 + 1 * j.val = j.val; omega
  have h1 : ((cfg1.win 1).blk t).view.emb (ix2 (0 : Fin 1) j) = ix2 (0 : Fin 1) j := by
    funext a; apply Fin.ext
    match a with
    | ⟨0, _⟩ => show win1_1.index t (0 : Fin 2) * 1 + 1 * 0 = 0; omega
    | ⟨1, _⟩ => show win1_1.index t (1 : Fin 2) * 16 + 1 * j.val = j.val; omega
  have h2 : ((cfg1.win 2).blk t).view.emb (ix2 r j) = ix2 (⟨t.val * 10000 + r.val, hp⟩ : Fin 100000) j := by
    funext a; apply Fin.ext
    match a with
    | ⟨0, _⟩ => show win1_2.index t (0 : Fin 2) * 10000 + 1 * r.val = t.val * 10000 + r.val; omega
    | ⟨1, _⟩ => show win1_2.index t (1 : Fin 2) * 16 + 1 * j.val = j.val; omega
  show FloatOps.maximumf (FloatOps.addf (V c main_v43 (((cfg1.win 0).blk t).view.emb (ix2 r j)))
      (V c main_v44 (((cfg1.win 1).blk t).view.emb (ix2 (0 : Fin 1) j)))) (FloatOps.ofBits .f32 0x00000000#32)
    = rowBias16 (F := F) (V c main_v43) (V c main_v44) (((cfg1.win 2).blk t).view.emb (ix2 r j))
  rw [h0, h1, h2, rowBias16_apply]

/-- An index of the result array is in point `t`'s block iff each coordinate is in the block's range on its axis. -/
theorem mem_blk (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v45).slice (win1_2.rect t)).set ↔ _
  rw [View.set_slice_whole, Rect.mem_set_unit]
  exact Iff.rfl

/-- Every index of the result array is in the block of the point numbered by its row divided by 10000. -/
theorem cover (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : grid1.N = 10 := N_1
  obtain ⟨t, ht⟩ : ∃ t : Fin cfg1.N, t.val = (i 0).val / 10000 :=
    ⟨⟨(i 0).val / 10000, by show (i 0).val / 10000 < grid1.N; omega⟩, rfl⟩
  obtain ⟨e0, e1, e2, e3, e4, e5⟩ := idx_facts t
  refine ⟨t, flush1_2 t, ?_⟩
  rw [mem_blk]
  intro a
  match a with
  | ⟨0, _⟩ =>
    show win1_2.index t (0 : Fin 2) * 10000 ≤ (i 0).val ∧ (i 0).val < win1_2.index t (0 : Fin 2) * 10000 + 10000
    omega
  | ⟨1, _⟩ =>
    show win1_2.index t (1 : Fin 2) * 16 ≤ (i 1).val ∧ (i 1).val < win1_2.index t (1 : Fin 2) * 16 + 16
    omega

/-- After the region the result array is `rowBias16` of the aggregated array and the bias row as entered. -/
theorem final (c : Dev nD) :
    (dat1 (F := F) V c).arrAt 2 cfg1.N = rowBias16 (F := F) (V c main_v43) (V c main_v44) := by
  exact (dat1 (F := F) V c).arrAt_eq_of_cover 2 (rowBias16 (F := F) (V c main_v43) (V c main_v44))
    (fun t _ => flushed_eq V c t) cover

end Cert.KernelIdeal.Region1

end
-- ==== Proof.Region2.lean ====
/-
  The second product's region: 10 points, point t multiplying rows 10000·t … 10000·t+9999 of the hidden array by the
  whole second weight matrix. Its result array after the last point is the product of the two arrays as entered.
-/
import proofs.«115787_j35966056137205_1_alg».proof.Proof.Gen.KernelIdeal.Frame
import proofs.«115787_j35966056137205_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region2

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The two zero offsets, however they are spelt. -/
theorem hz : (![0, 0] : Fin 2 → Nat) = fun _ => 0 := funext fun a => by fin_cases a <;> rfl

/-- The body's result block at (r, j): the left operand is first cast from its shape to the same shape, which changes
    nothing; both operands change format, which is the identity on the extended reals; and the product into the zero
    accumulator is the whole sum over the contracted axis. -/
theorem pay_apply (x0 : Vec Ideal S10000x16 .f32) (x1 : Vec Ideal S16x40 .f32) (r : Fin 10000) (j : Fin 40) :
    k2_pay1 (F := Ideal) x0 x1 (ix2 r j) = ∑ k : Fin 16, x0 (ix2 r k) * x1 (ix2 k j) := by
  unfold k2_pay1
  refine (Cert.LibPlainDot.vmatmul_apply dot_S10000x16_S16x40_S10000x40_1_0_0_1_n_n
    (Cert.LibPlainDot.plainDot_plain 10000 16 40) _ _ r j).trans ?_
  refine Finset.sum_congr rfl fun k _ => ?_
  show shapeCast S10000x16 x0 shapeCasts_S10000x16_S10000x16 (ix2 r k) * x1 (ix2 k j) = _
  rw [shapeCast_self]

/-- The printed index maps over the grid: the row blocks of the left operand and of the result move with the point; the
    right operand's one block stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the two arrays as the region found them. -/
theorem flushed_eq (c : Dev nD) (t : Fin cfg2.N) :
    (dat2 (F := Ideal) V c).flushed 2 t
      = ((cfg2.win 2).blk t).view.read (Elt Ideal) (lin2 (F := Ideal) (V c main_v45) (V c main_arg4)) := by
  show (cfg2.win 2).cut (grid2.coords t) ((dat2 (F := Ideal) V c).after 2 t) = _
  rw [after2_2]
  unfold out2_2
  rw [View.canon_unit_zero hz]
  simp only [View.ld_unit_zero (S := S10000x16) hz, View.ld_unit_zero (S := S16x40) hz]
  obtain ⟨e0, e1, e2, e3, e4, e5⟩ := idx_facts t
  funext y
  obtain ⟨r, j, rfl⟩ : ∃ (r : Fin 10000) (j : Fin 40), y = ix2 r j := ⟨y 0, y 1, eq_ix2 y⟩
  refine (pay_apply _ _ r j).trans ?_
  have ht : t.val < 10 := lt_of_lt_of_eq t.isLt N_2
  have hr : r.val < 10000 := r.isLt
  have hp : t.val * 10000 + r.val < 100000 := by omega
  -- row r of the result's block t is row 10000·t + r of the array
  have h2 : ((cfg2.win 2).blk t).view.emb (ix2 r j) = ix2 (⟨t.val * 10000 + r.val, hp⟩ : Fin 100000) j := by
    funext a; apply Fin.ext
    match a with
    | ⟨0, _⟩ => show win2_2.index t (0 : Fin 2) * 10000 + 1 * r.val = t.val * 10000 + r.val; omega
    | ⟨1, _⟩ => show win2_2.index t (1 : Fin 2) * 40 + 1 * j.val = j.val; omega
  show _ = lin2 (F := Ideal) (V c main_v45) (V c main_arg4) (((cfg2.win 2).blk t).view.emb (ix2 r j))
  rw [h2, lin2_apply]
  refine Finset.sum_congr rfl fun k _ => ?_
  -- the same row of the left operand's block t; the right operand's block is the whole matrix
  have h0 : ((cfg2.win 0).blk t).view.emb (ix2 r k) = ix2 (⟨t.val * 10000 + r.val, hp⟩ : Fin 100000) k := by
    funext a; apply Fin.ext
    match a with
    | ⟨0, _⟩ => show win2_0.index t (0 : Fin 2) * 10000 + 1 * r.val = t.val * 10000 + r.val; omega
    | ⟨1, _⟩ => show win2_0.index t (1 : Fin 2) * 16 + 1 * k.val = k.val; omega
  have h1 : ((cfg2.win 1).blk t).view.emb (ix2 k j) = ix2 k j := by
    funext a; apply Fin.ext
    match a with
    | ⟨0, _⟩ => show win2_1.index t (0 : Fin 2) * 16 + 1 * k.val = k.val; omega
    | ⟨1, _⟩ => show win2_1.index t (1 : Fin 2) * 40 + 1 * j.val = j.val; omega
  have a0 : iblk2 V c 0 t (ix2 r k) = V c main_v45 (ix2 (⟨t.val * 10000 + r.val, hp⟩ : Fin 100000) k) :=
    congrArg (V c main_v45) h0
  have a1 : iblk2 V c 1 t (ix2 k j) = V c main_arg4 (ix2 k j) := congrArg (V c main_arg4) h1
  rw [a0, a1]

/-- An index of the result array is in point t's block iff each coordinate is in the block's range on its axis. -/
theorem mem_blk (t : Fin cfg2.N) (i : S100000x40.Idx) :
    i ∈ ((cfg2.win 2).blk t).view.set ↔ ∀ a : Fin 2, win2_2.index t a * S10000x40.size a ≤ (i a).val
      ∧ (i a).val < win2_2.index t a * S10000x40.size a + S10000x40.size a := by
  show i ∈ ((View.whole main_v46).slice (win2_2.rect t)).set ↔ _
  rw [View.set_slice_whole, Rect.mem_set_unit]
  exact Iff.rfl

/-- Every row of the result is in some point's block: row i is in the block of point i / 10000, and every point writes
    its block back. -/
theorem cover (i : S100000x40.Idx) :
    ∃ t : Fin cfg2.N, (cfg2.win 2).flush t = true ∧ i ∈ ((cfg2.win 2).blk t).view.set := by
  have hN : grid2.N = 10 := N_2
  have hi0 : (i 0).val < 100000 := (i 0).isLt
  have hi1 : (i 1).val < 40 := (i 1).isLt
  have hq : (i 0).val / 10000 < grid2.N := by rw [hN]; omega
  refine ⟨⟨(i 0).val / 10000, hq⟩, flush2_2 _, ?_⟩
  rw [mem_blk]
  obtain ⟨-, -, -, -, e4, e5⟩ := idx_facts ⟨(i 0).val / 10000, hq⟩
  have e4' : win2_2.index ⟨(i 0).val / 10000, hq⟩ (0 : Fin 2) = (i 0).val / 10000 := e4
  intro a
  match a with
  | ⟨0, _⟩ =>
    show win2_2.index ⟨(i 0).val / 10000, hq⟩ (0 : Fin 2) * 10000 ≤ (i 0).val
      ∧ (i 0).val < win2_2.index ⟨(i 0).val / 10000, hq⟩ (0 : Fin 2) * 10000 + 10000
    omega
  | ⟨1, _⟩ =>
    show win2_2.index ⟨(i 0).val / 10000, hq⟩ (1 : Fin 2) * 40 ≤ (i 1).val
      ∧ (i 1).val < win2_2.index ⟨(i 0).val / 10000, hq⟩ (1 : Fin 2) * 40 + 40
    omega

/-- After the region the result array is `lin2` of the two operand arrays as entered. -/
theorem final (c : Dev nD) :
    (dat2 (F := Ideal) V c).arrAt 2 cfg2.N = lin2 (F := Ideal) (V c main_v45) (V c main_arg4) := by
  exact (dat2 (F := Ideal) V c).arrAt_eq_of_cover 2 (lin2 (F := Ideal) (V c main_v45) (V c main_arg4))
    (fun t _ => flushed_eq V c t) cover

end Cert.KernelIdeal.Region2

end
-- ==== Proof.Region3.lean ====
/-
  The bias region: 10 points, point t adding the bias row to rows 10000·t … 10000·t+9999. Its result array after the
  last point is `rowBias40` of the two arrays as the region found them.
-/
import proofs.«115787_j35966056137205_1_alg».proof.Proof.Gen.KernelIdeal.Frame
import proofs.«115787_j35966056137205_1_alg».proof.Proof.Layers
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region3

open Cert.KernelIdeal Cert.KernelIdeal.Gen Cert.Gcn
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

theorem zeroOff : (![0, 0] : Fin 2 → Nat) = fun _ => 0 := funext fun a => by fin_cases a <;> rfl

/-- The body's payload at a row and a column: the block's entry plus the bias row's entry of that column. -/
theorem pay_apply (b : Vec F S1x40 .f32) (x : Vec F S10000x40 .f32) (r : Fin 10000) (j : Fin 40) :
    k3_pay1 b x (ix2 r j) = FloatOps.addf (x (ix2 r j)) (b (ix2 (0 : Fin 1) j)) := by
  unfold k3_pay1
  simp only [shapeCast_self]
  show FloatOps.addf (x (ix2 r j)) (broadcastTo S10000x40 b broadcasts_S1x40_S10000x40 (ix2 r j)) = _
  rw [broadcastTo_1b_ab_apply]

/-- The block indices over the ten points: the two big windows move down the rows with the point, the bias row stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of `rowBias40` of the two arrays as entered. -/
theorem flushed_eq (c : Dev nD) (t : Fin cfg3.N) :
    (dat3 (F := F) V c).flushed 2 t
      = ((cfg3.win 2).blk t).view.read (Elt F) (rowBias40 (F := F) (V c main_v59) (V c main_v60)) := by
  show (cfg3.win 2).cut (grid3.coords t) ((dat3 V c).after 2 t) = _
  rw [after3_2]
  unfold out3_2
  rw [View.canon_unit_zero zeroOff]
  simp only [View.ld_unit_zero (S := S10000x40) zeroOff, View.ld_unit_zero (S := S1x40) zeroOff]
  obtain ⟨e0, e1, e2, e3, e4, e5⟩ := idx_facts t
  funext y
  obtain ⟨r, j, rfl⟩ : ∃ (r : Fin 10000) (j : Fin 40), y = ix2 r j := ⟨y 0, y 1, eq_ix2 y⟩
  refine (pay_apply _ _ r j).trans ?_
  have hr : r.val < 10000 := r.isLt
  have hN : grid3.N = 10 := N_3
  have ht : t.val < grid3.N := t.isLt
  have hp : t.val * 10000 + r.val < 100000 := by omega
  have h0 : ((cfg3.win 0).blk t).view.emb (ix2 r j) = ix2 (⟨t.val * 10000 + r.val, hp⟩ : Fin 100000) j := by
    funext a; apply Fin.ext
    match a with
    | ⟨0, _⟩ => show win3_0.index t (0 : Fin 2) * 10000 + 1 * r.val = t.val * 10000 + r.val; omega
    | ⟨1, _⟩ => show win3_0.index t (1 : Fin 2) * 40 + 1 * j.val = j.val; omega
  have h1 : ((cfg3.win 1).blk t).view.emb (ix2 (0 : Fin 1) j) = ix2 (0 : Fin 1) j := by
    funext a; apply Fin.ext
    match a with
    | ⟨0, _⟩ => show win3_1.index t (0 : Fin 2) * 1 + 1 * 0 = 0; omega
    | ⟨1, _⟩ => show win3_1.index t (1 : Fin 2) * 40 + 1 * j.val = j.val; omega
  have h2 : ((cfg3.win 2).blk t).view.emb (ix2 r j) = ix2 (⟨t.val * 10000 + r.val, hp⟩ : Fin 100000) j := by
    funext a; apply Fin.ext
    match a with
    | ⟨0, _⟩ => show win3_2.index t (0 : Fin 2) * 10000 + 1 * r.val = t.val * 10000 + r.val; omega
    | ⟨1, _⟩ => show win3_2.index t (1 : Fin 2) * 40 + 1 * j.val = j.val; omega
  show FloatOps.addf (V c main_v59 (((cfg3.win 0).blk t).view.emb (ix2 r j)))
      (V c main_v60 (((cfg3.win 1).blk t).view.emb (ix2 (0 : Fin 1) j)))
    = rowBias40 (F := F) (V c main_v59) (V c main_v60) (((cfg3.win 2).blk t).view.emb (ix2 r j))
  rw [h0, h1, h2, rowBias40_apply]

/-- An index of the result array is in point `t`'s block iff each coordinate is in the block's range on its axis. -/
theorem mem_blk (t : Fin cfg3.N) (i : S100000x40.Idx) :
    i ∈ ((cfg3.win 2).blk t).view.set ↔ ∀ a : Fin 2, win3_2.index t a * S10000x40.size a ≤ (i a).val
      ∧ (i a).val < win3_2.index t a * S10000x40.size a + S10000x40.size a := by
  show i ∈ ((View.whole main_v61).slice (win3_2.rect t)).set ↔ _
  rw [View.set_slice_whole, Rect.mem_set_unit]
  exact Iff.rfl

/-- Every index of the result array is in the block of the point numbered by its row divided by 10000. -/
theorem cover (i : S100000x40.Idx) :
    ∃ t : Fin cfg3.N, (cfg3.win 2).flush t = true ∧ i ∈ ((cfg3.win 2).blk t).view.set := by
  have hi0 : (i 0).val < 100000 := (i 0).isLt
  have hi1 : (i 1).val < 40 := (i 1).isLt
  have hN : grid3.N = 10 := N_3
  obtain ⟨t, ht⟩ : ∃ t : Fin cfg3.N, t.val = (i 0).val / 10000 :=
    ⟨⟨(i 0).val / 10000, by show (i 0).val / 10000 < grid3.N; omega⟩, rfl⟩
  obtain ⟨e0, e1, e2, e3, e4, e5⟩ := idx_facts t
  refine ⟨t, flush3_2 t, ?_⟩
  rw [mem_blk]
  intro a
  match a with
  | ⟨0, _⟩ =>
    show win3_2.index t (0 : Fin 2) * 10000 ≤ (i 0).val ∧ (i 0).val < win3_2.index t (0 : Fin 2) * 10000 + 10000
    omega
  | ⟨1, _⟩ =>
    show win3_2.index t (1 : Fin 2) * 40 ≤ (i 1).val ∧ (i 1).val < win3_2.index t (1 : Fin 2) * 40 + 40
    omega

/-- After the region the result array is `rowBias40` of the aggregated array and the bias row as entered. -/
theorem final (c : Dev nD) :
    (dat3 (F := F) V c).arrAt 2 cfg3.N = rowBias40 (F := F) (V c main_v59) (V c main_v60) := by
  exact (dat3 (F := F) V c).arrAt_eq_of_cover 2 (rowBias40 (F := F) (V c main_v59) (V c main_v60))
    (fun t _ => flushed_eq V c t) cover

end Cert.KernelIdeal.Region3

end
-- ==== Proof.Fold.lean ====
/-
  The idealized kernel's buffer contents folded through its nine segments, read at the result buffer.

  Three stretches of host operations compute, from the edge argument alone, the two ends of every edge (with the self
  loops) and the per-edge weights; region 0 multiplies the node features by the first weight matrix; a stretch
  aggregates that product over the edges and lays the first bias out as a row; region 1 adds the bias row and takes the
  maximum with zero; region 2 multiplies by the second weight matrix; a stretch aggregates over the SAME edge list with
  the SAME weights and lays the second bias out as a row; region 3 adds it. A region writes only its own result array
  and a stretch only its own intermediate buffers, so the edge list, the weights and the arguments each later segment
  reads are still what the first three stretches left. `out_eq`: the result buffer ends holding `Cert.Gcn.network` of
  the launch contents of the arguments, the bias vectors as rows.
-/
import proofs.«115787_j35966056137205_1_alg».proof.Proof.Gen.KernelIdeal.Frame
import proofs.«115787_j35966056137205_1_alg».proof.Proof.Layers
import proofs.«115787_j35966056137205_1_alg».proof.Proof.Region0
import proofs.«115787_j35966056137205_1_alg».proof.Proof.Region1
import proofs.«115787_j35966056137205_1_alg».proof.Proof.Region2
import proofs.«115787_j35966056137205_1_alg».proof.Proof.Region3
import Idealize.ShloMosaic.Lib.StableHlo.Run
import Idealize.ShloMosaic.Lib.Pipeline.Value

noncomputable section

namespace Cert.KernelIdeal.Fold

open Cert.KernelIdeal Cert.KernelIdeal.Gen Cert.Gcn
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## What region 0 finds: the edge list, the weights and the arguments

The three stretches before the first region compute, from the edge argument alone, the two ends of every edge and the
per-edge weights; they write no argument. -/

set_option maxHeartbeats 1000000 in
theorem rows_at_entry (c : Dev nD) :
    W3 m ρ c (Proc.devRef .tc main_v5) = rowsOf (F := F) (m ((c : Thread nD τ).loc main_arg1)) := by
  show StableHlo.after hostOps0_2 (StableHlo.after hostOps0_1 (StableHlo.after hostOps0 (W0 m ρ c))) (Proc.devRef .tc main_v5) = _
  after_results
  rfl

set_option maxHeartbeats 1000000 in
theorem cols_at_entry (c : Dev nD) :
    W3 m ρ c (Proc.devRef .tc main_v6) = colsOf (F := F) (m ((c : Thread nD τ).loc main_arg1)) := by
  show StableHlo.after hostOps0_2 (StableHlo.after hostOps0_1 (StableHlo.after hostOps0 (W0 m ρ c))) (Proc.devRef .tc main_v6) = _
  after_results
  rfl

set_option maxHeartbeats 4000000 in
theorem weight_at_entry (c : Dev nD) :
    W3 m ρ c (Proc.devRef .tc main_v29) = weightOf (F := F) (m ((c : Thread nD τ).loc main_arg1)) := by
  show StableHlo.after hostOps0_2 (StableHlo.after hostOps0_1 (StableHlo.after hostOps0 (W0 m ρ c))) (Proc.devRef .tc main_v29) = _
  after_results
  rfl

set_option maxHeartbeats 1000000 in
theorem arg0_at_entry (c : Dev nD) :
    W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results

set_option maxHeartbeats 1000000 in
theorem arg2_at_entry (c : Dev nD) :
    W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results

set_option maxHeartbeats 1000000 in
theorem arg3_at_entry (c : Dev nD) :
    W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results

set_option maxHeartbeats 1000000 in
theorem arg4_at_entry (c : Dev nD) :
    W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results

set_option maxHeartbeats 1000000 in
theorem arg5_at_entry (c : Dev nD) :
    W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results

/-! ## Through the first layer

Region 0 writes only its result; the stretch after it aggregates that result over the edges and lays the first bias
out as a row; it writes none of the edge list, the weights or the later arguments. -/

theorem lin1_after_region0 (m : (ℓ : Loc nD τ sig) → Buf (Elt Ideal) ℓ) (ρ : Dev nD → PrngReg) (c : Dev nD) :
    W4 m ρ c (Proc.devRef .tc main_v30) = lin1 (F := Ideal) (m ((c : Thread nD τ).loc main_arg0)) (m ((c : Thread nD τ).loc main_arg2)) := by
  refine (W4_arr m ρ c 2).trans ?_
  refine (Cert.KernelIdeal.Region0.final (V3 m ρ) c).trans ?_
  show lin1 (F := Ideal) (W3 m ρ c (Proc.devRef .tc main_arg0)) (W3 m ρ c (Proc.devRef .tc main_arg2)) = _
  rw [arg0_at_entry, arg2_at_entry]

theorem main_v5_after_region0 (c : Dev nD) : W4 m ρ c (Proc.devRef .tc main_v5) = W3 m ρ c (Proc.devRef .tc main_v5) :=
  W4_of_ne m ρ c main_v5 (by decide)

theorem main_v6_after_region0 (c : Dev nD) : W4 m ρ c (Proc.devRef .tc main_v6) = W3 m ρ c (Proc.devRef .tc main_v6) :=
  W4_of_ne m ρ c main_v6 (by decide)

theorem main_v29_after_region0 (c : Dev nD) : W4 m ρ c (Proc.devRef .tc main_v29) = W3 m ρ c (Proc.devRef .tc main_v29) :=
  W4_of_ne m ρ c main_v29 (by decide)

theorem main_arg3_after_region0 (c : Dev nD) : W4 m ρ c (Proc.devRef .tc main_arg3) = W3 m ρ c (Proc.devRef .tc main_arg3) :=
  W4_of_ne m ρ c main_arg3 (by decide)

theorem main_arg4_after_region0 (c : Dev nD) : W4 m ρ c (Proc.devRef .tc main_arg4) = W3 m ρ c (Proc.devRef .tc main_arg4) :=
  W4_of_ne m ρ c main_arg4 (by decide)

theorem main_arg5_after_region0 (c : Dev nD) : W4 m ρ c (Proc.devRef .tc main_arg5) = W3 m ρ c (Proc.devRef .tc main_arg5) :=
  W4_of_ne m ρ c main_arg5 (by decide)

set_option maxHeartbeats 2000000 in
theorem agg1_before_region1 (c : Dev nD) :
    W5 m ρ c (Proc.devRef .tc main_v43)
      = agg16 (F := F) (W4 m ρ c (Proc.devRef .tc main_v30)) (W4 m ρ c (Proc.devRef .tc main_v5))
          (W4 m ρ c (Proc.devRef .tc main_v6)) (W4 m ρ c (Proc.devRef .tc main_v29)) := by
  show StableHlo.after hostOps1 (W4 m ρ c) (Proc.devRef .tc main_v43) = _
  after_results
  rfl

set_option maxHeartbeats 1000000 in
theorem bias1_before_region1 (c : Dev nD) :
    W5 m ρ c (Proc.devRef .tc main_v44) = rowOf16 (F := F) (W4 m ρ c (Proc.devRef .tc main_arg3)) := by
  show StableHlo.after hostOps1 (W4 m ρ c) (Proc.devRef .tc main_v44) = _
  after_results
  exact castRow16 _ _

set_option maxHeartbeats 1000000 in
theorem main_v5_before_region1 (c : Dev nD) : W5 m ρ c (Proc.devRef .tc main_v5) = W4 m ρ c (Proc.devRef .tc main_v5) := by
  show StableHlo.after hostOps1 (W4 m ρ c) (Proc.devRef .tc main_v5) = _
  after_results

set_option maxHeartbeats 1000000 in
theorem main_v6_before_region1 (c : Dev nD) : W5 m ρ c (Proc.devRef .tc main_v6) = W4 m ρ c (Proc.devRef .tc main_v6) := by
  show StableHlo.after hostOps1 (W4 m ρ c) (Proc.devRef .tc main_v6) = _
  after_results

set_option maxHeartbeats 1000000 in
theorem main_v29_before_region1 (c : Dev nD) : W5 m ρ c (Proc.devRef .tc main_v29) = W4 m ρ c (Proc.devRef .tc main_v29) := by
  show StableHlo.after hostOps1 (W4 m ρ c) (Proc.devRef .tc main_v29) = _
  after_results

set_option maxHeartbeats 1000000 in
theorem main_arg4_before_region1 (c : Dev nD) : W5 m ρ c (Proc.devRef .tc main_arg4) = W4 m ρ c (Proc.devRef .tc main_arg4) := by
  show StableHlo.after hostOps1 (W4 m ρ c) (Proc.devRef .tc main_arg4) = _
  after_results

set_option maxHeartbeats 1000000 in
theorem main_arg5_before_region1 (c : Dev nD) : W5 m ρ c (Proc.devRef .tc main_arg5) = W4 m ρ c (Proc.devRef .tc main_arg5) := by
  show StableHlo.after hostOps1 (W4 m ρ c) (Proc.devRef .tc main_arg5) = _
  after_results

/-! ## Through regions 1 and 2 -/

theorem hidden_after_region1 (c : Dev nD) :
    W6 m ρ c (Proc.devRef .tc main_v45)
      = rowBias16 (F := F) (W5 m ρ c (Proc.devRef .tc main_v43)) (W5 m ρ c (Proc.devRef .tc main_v44)) :=
  (W6_arr m ρ c 2).trans (Cert.KernelIdeal.Region1.final (V5 m ρ) c)

theorem main_v5_after_region1 (c : Dev nD) : W6 m ρ c (Proc.devRef .tc main_v5) = W5 m ρ c (Proc.devRef .tc main_v5) :=
  W6_of_ne m ρ c main_v5 (by decide)

theorem main_v6_after_region1 (c : Dev nD) : W6 m ρ c (Proc.devRef .tc main_v6) = W5 m ρ c (Proc.devRef .tc main_v6) :=
  W6_of_ne m ρ c main_v6 (by decide)

theorem main_v29_after_region1 (c : Dev nD) : W6 m ρ c (Proc.devRef .tc main_v29) = W5 m ρ c (Proc.devRef .tc main_v29) :=
  W6_of_ne m ρ c main_v29 (by decide)

theorem main_arg4_after_region1 (c : Dev nD) : W6 m ρ c (Proc.devRef .tc main_arg4) = W5 m ρ c (Proc.devRef .tc main_arg4) :=
  W6_of_ne m ρ c main_arg4 (by decide)

theorem main_arg5_after_region1 (c : Dev nD) : W6 m ρ c (Proc.devRef .tc main_arg5) = W5 m ρ c (Proc.devRef .tc main_arg5) :=
  W6_of_ne m ρ c main_arg5 (by decide)

theorem lin2_after_region2 (m : (ℓ : Loc nD τ sig) → Buf (Elt Ideal) ℓ) (ρ : Dev nD → PrngReg) (c : Dev nD) :
    W7 m ρ c (Proc.devRef .tc main_v46)
      = lin2 (F := Ideal) (W6 m ρ c (Proc.devRef .tc main_v45)) (W6 m ρ c (Proc.devRef .tc main_arg4)) :=
  (W7_arr m ρ c 2).trans (Cert.KernelIdeal.Region2.final (V6 m ρ) c)

theorem main_v5_after_region2 (c : Dev nD) : W7 m ρ c (Proc.devRef .tc main_v5) = W6 m ρ c (Proc.devRef .tc main_v5) :=
  W7_of_ne m ρ c main_v5 (by decide)

theorem main_v6_after_region2 (c : Dev nD) : W7 m ρ c (Proc.devRef .tc main_v6) = W6 m ρ c (Proc.devRef .tc main_v6) :=
  W7_of_ne m ρ c main_v6 (by decide)

theorem main_v29_after_region2 (c : Dev nD) : W7 m ρ c (Proc.devRef .tc main_v29) = W6 m ρ c (Proc.devRef .tc main_v29) :=
  W7_of_ne m ρ c main_v29 (by decide)

theorem main_arg5_after_region2 (c : Dev nD) : W7 m ρ c (Proc.devRef .tc main_arg5) = W6 m ρ c (Proc.devRef .tc main_arg5) :=
  W7_of_ne m ρ c main_arg5 (by decide)

/-! ## The second aggregation and the last region -/

set_option maxHeartbeats 2000000 in
theorem agg2_before_region3 (c : Dev nD) :
    W8 m ρ c (Proc.devRef .tc main_v59)
      = agg40 (F := F) (W7 m ρ c (Proc.devRef .tc main_v46)) (W7 m ρ c (Proc.devRef .tc main_v5))
          (W7 m ρ c (Proc.devRef .tc main_v6)) (W7 m ρ c (Proc.devRef .tc main_v29)) := by
  show StableHlo.after hostOps3 (W7 m ρ c) (Proc.devRef .tc main_v59) = _
  after_results
  rfl

set_option maxHeartbeats 1000000 in
theorem bias2_before_region3 (c : Dev nD) :
    W8 m ρ c (Proc.devRef .tc main_v60) = rowOf40 (F := F) (W7 m ρ c (Proc.devRef .tc main_arg5)) := by
  show StableHlo.after hostOps3 (W7 m ρ c) (Proc.devRef .tc main_v60) = _
  after_results
  exact castRow40 _ _

theorem out_after_region3 (c : Dev nD) :
    W9 m ρ c (Proc.devRef .tc main_v61)
      = rowBias40 (F := F) (W8 m ρ c (Proc.devRef .tc main_v59)) (W8 m ρ c (Proc.devRef .tc main_v60)) :=
  (W9_arr m ρ c 2).trans (Cert.KernelIdeal.Region3.final (V8 m ρ) c)

/-! ## Each buffer the later segments read, walked back to what region 0 found -/

theorem main_v5_kept (c : Dev nD) : W7 m ρ c (Proc.devRef .tc main_v5) = W3 m ρ c (Proc.devRef .tc main_v5) :=
  (main_v5_after_region2 m ρ c).trans ((main_v5_after_region1 m ρ c).trans ((main_v5_before_region1 m ρ c).trans (main_v5_after_region0 m ρ c)))

theorem main_v6_kept (c : Dev nD) : W7 m ρ c (Proc.devRef .tc main_v6) = W3 m ρ c (Proc.devRef .tc main_v6) :=
  (main_v6_after_region2 m ρ c).trans ((main_v6_after_region1 m ρ c).trans ((main_v6_before_region1 m ρ c).trans (main_v6_after_region0 m ρ c)))

theorem main_v29_kept (c : Dev nD) : W7 m ρ c (Proc.devRef .tc main_v29) = W3 m ρ c (Proc.devRef .tc main_v29) :=
  (main_v29_after_region2 m ρ c).trans ((main_v29_after_region1 m ρ c).trans ((main_v29_before_region1 m ρ c).trans (main_v29_after_region0 m ρ c)))

theorem arg3_kept (c : Dev nD) : W4 m ρ c (Proc.devRef .tc main_arg3) = (m ((c : Thread nD τ).loc main_arg3)) :=
  (main_arg3_after_region0 m ρ c).trans (arg3_at_entry m ρ c)
theorem arg4_kept (c : Dev nD) : W6 m ρ c (Proc.devRef .tc main_arg4) = (m ((c : Thread nD τ).loc main_arg4)) :=
  (main_arg4_after_region1 m ρ c).trans ((main_arg4_before_region1 m ρ c).trans ((main_arg4_after_region0 m ρ c).trans (arg4_at_entry m ρ c)))
theorem arg5_kept (c : Dev nD) : W7 m ρ c (Proc.devRef .tc main_arg5) = (m ((c : Thread nD τ).loc main_arg5)) :=
  (main_arg5_after_region2 m ρ c).trans ((main_arg5_after_region1 m ρ c).trans ((main_arg5_before_region1 m ρ c).trans ((main_arg5_after_region0 m ρ c).trans (arg5_at_entry m ρ c))))

/-! ## The result -/

/-- The idealized kernel's result buffer ends holding the network of the launch contents of its arguments. -/
theorem out_eq (m : (ℓ : Loc nD τ sig) → Buf (Elt Ideal) ℓ) (ρ : Dev nD → PrngReg) (c : Dev nD) :
    W9 m ρ c (Proc.devRef .tc main_v61)
      = network (F := Ideal) (m ((c : Thread nD τ).loc main_arg0)) (m ((c : Thread nD τ).loc main_arg1)) (m ((c : Thread nD τ).loc main_arg2)) (rowOf16 (F := Ideal) (m ((c : Thread nD τ).loc main_arg3))) (m ((c : Thread nD τ).loc main_arg4)) (rowOf40 (F := Ideal) (m ((c : Thread nD τ).loc main_arg5))) := by
  rw [out_after_region3, agg2_before_region3, bias2_before_region3, lin2_after_region2, hidden_after_region1,
    agg1_before_region1, bias1_before_region1, lin1_after_region0]
  rw [main_v5_kept, main_v6_kept, main_v29_kept, arg5_kept, arg4_kept, arg3_kept,
    main_v5_after_region0, main_v6_after_region0, main_v29_after_region0,
    rows_at_entry, cols_at_entry, weight_at_entry]
  rfl

end Cert.KernelIdeal.Fold

end
-- ==== Proof.RefValue.lean ====
/-
  The reference's result is the network.

  The reference computes a graph-convolution layer twice — product with a weight matrix, aggregation over the edges,
  bias —, the first followed by the maximum with zero; each layer rebuilds the edge list with its self loops and the
  per-edge weights from the same edge argument by the same operations. Its run ends with the result buffer at the
  composed term of those operations; unfolded, that term is `Cert.Gcn.network` of the arguments, the two bias vectors
  broadcast to rows, with one edge list and one weight vector shared by the two layers.
-/
import proofs.«115787_j35966056137205_1_alg».proof.Proof.RefRun
import proofs.«115787_j35966056137205_1_alg».proof.Proof.Layers

noncomputable section

namespace Cert.ReferenceIdeal.RefValue

open Cert.ReferenceIdeal Cert.Gcn Idealize.ShloMosaic Idealize.ShloMosaic.TcCoe Idealize.SL.Sem

variable {F : FTy → Type} [FloatOps F]

set_option maxRecDepth 16384 in
set_option maxHeartbeats 4000000 in
/-- The composed term of the reference's operations is the network of the arguments. -/
theorem result_eq (m : (ℓ : Loc nD τ sig) → Buf (Elt F) ℓ) (c : Dev nD) :
    Cert.ReferenceIdeal.ValueP.res_main_v94 m c
      = network (F := F) (m ((c.tc : Thread nD τ).loc main_arg0)) (m ((c.tc : Thread nD τ).loc main_arg1))
          (m ((c.tc : Thread nD τ).loc main_arg2)) (rowOf16 (F := F) (m ((c.tc : Thread nD τ).loc main_arg3)))
          (m ((c.tc : Thread nD τ).loc main_arg4)) (rowOf40 (F := F) (m ((c.tc : Thread nD τ).loc main_arg5))) := by
  unfold Cert.ReferenceIdeal.ValueP.res_main_v94
  rfl

end Cert.ReferenceIdeal.RefValue

end
-- ==== Proof.lean ====
/-
  The certificate of a two-layer graph convolution: the kernel against its reference, on the extended reals.

  Both programs compute two layers, the first followed by the maximum with zero:
      out = Â · (max(Â · (X · W1) + b1, 0) · W2) + b2,
  where Â aggregates over the edge list with self loops appended, each edge weighted by the product of its two ends'
  inverse square-root in-degrees (taken as zero where the count is not positive). The kernel runs the two matrix products and the two
  bias passes as four grid regions (rows of the node arrays in blocks, the contracted axis never cut, so every entry is
  the same whole sum) and everything else — the edge list, the degrees, the weights, the two gathers and accumulating
  scatters — as host operations, computing the edge list and the weights ONCE; the reference is host operations
  throughout and computes them once per layer, by the same operations of the same argument. At the ideal instance a
  change of float format is the identity, a product into the zero accumulator is the host's product, and no step
  regroups a sum across an infinity, so the two results are one function of the arguments — `Cert.Gcn.network`
  (Proof/Layers.lean) — and the precondition is never opened.
    · Proof/Fold.lean: the kernel's result buffer ends at `network` of its arguments (the four regions' arrays from
      Proof/Region0 … Region3.lean, the host stretches read between them), over the run of Proof/KernelRun.lean.
    · Proof/RefValue.lean: the reference's composed term is `network` of its arguments, over the run of Proof/RefRun.lean.
  The idealization rewrote no operation, so `preserves` has nothing to state.
-/
import proofs.«115787_j35966056137205_1_alg».proof.Defs
import proofs.«115787_j35966056137205_1_alg».proof.Proof.Gen.Kernel
import proofs.«115787_j35966056137205_1_alg».proof.Proof.Gen.Kernel.Frame
import proofs.«115787_j35966056137205_1_alg».proof.Proof.Gen.KernelIdeal
import proofs.«115787_j35966056137205_1_alg».proof.Proof.Gen.KernelIdeal.Frame
import proofs.«115787_j35966056137205_1_alg».proof.Proof.Gen.ReferenceIdeal
import proofs.«115787_j35966056137205_1_alg».proof.Proof.Gen.Pre_finite_inputs
import proofs.«115787_j35966056137205_1_alg».proof.Proof.KernelRun
import proofs.«115787_j35966056137205_1_alg».proof.Proof.Fold
import proofs.«115787_j35966056137205_1_alg».proof.Proof.RefRun
import proofs.«115787_j35966056137205_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-- From memories agreeing on the arguments both programs end with the network of those arguments in their result
    buffers: the kernel's by the fold through its segments, the reference's by unfolding its composed term. -/
theorem algebraic : Cert.algebraic_KernelIdeal_ReferenceIdeal := by
  intro m ρ m' ρ' _ hagree
  refine ⟨fun c => Cert.Gcn.network (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.Gcn.rowOf16 (F := Ideal) (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (Cert.Gcn.rowOf40 (F := Ideal) (m ((c.tc : Thread Cert.KernelIdeal.nD Cert.KernelIdeal.τ).loc Cert.KernelIdeal.main_arg5))), ?_, ?_⟩
  · exact (θ_run Cert.KernelIdeal.defs _ _).mono
      (fun _ h c => ⟨(h c).1.trans (Cert.KernelIdeal.Fold.out_eq m ρ c), (h c).2⟩)
      (Cert.KernelIdeal.RunAll.run_out (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.RefValue.result_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
